-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x784 : Shape := ⟨2, ![64, 784]⟩
abbrev S784x4096 : Shape := ⟨2, ![784, 4096]⟩
abbrev S100x4096 : Shape := ⟨2, ![100, 4096]⟩
abbrev S10x4096 : Shape := ⟨2, ![10, 4096]⟩
abbrev S_ : Shape := ⟨0, ![]⟩

class Facts : Prop where
  bcast_S_S64x784 : S_.BroadcastsInDim S64x784 (![] : Fin 0 → Fin S64x784.rank)
  reducesTo_S64x784_S_d0_1 : S64x784.ReducesTo [0, 1] S_
  h_S_ : 0 < S_.numel
  bcast_S_S784x4096 : S_.BroadcastsInDim S784x4096 (![] : Fin 0 → Fin S784x4096.rank)
  reducesTo_S784x4096_S_d0_1 : S784x4096.ReducesTo [0, 1] S_
  bcast_S_S100x4096 : S_.BroadcastsInDim S100x4096 (![] : Fin 0 → Fin S100x4096.rank)
  reducesTo_S100x4096_S_d0_1 : S100x4096.ReducesTo [0, 1] S_
  bcast_S_S10x4096 : S_.BroadcastsInDim S10x4096 (![] : Fin 0 → Fin S10x4096.rank)
  reducesTo_S10x4096_S_d0_1 : S10x4096.ReducesTo [0, 1] S_

variable [Facts]

def fn_part1 {F : FTy → Type} [FloatOps F] (main_v13 : IVec S_ 1) (main_v16 : IVec S10x4096 1) : IVec S_ 1 :=
  let main_c_5 : IVec S_ 1 := constantI S_ 1 1#1
  let main_v17 : IVec S_ 1 := (fun x v => Host.reduce IntOp.andi x v reducesTo_S10x4096_S_d0_1 h_S_) main_v16 main_c_5
  let main_v18 : IVec S_ 1 := andi main_v13 main_v17
  main_v18

def fn {F : FTy → Type} [FloatOps F] (main_arg0 : FVec F S64x784 .f32) (main_arg1 : FVec F S784x4096 .f32) (main_arg2 : FVec F S100x4096 .f32) (main_arg3 : FVec F S10x4096 .f32) : IVec S_ 1 :=
  let main_v0 : FVec F S64x784 .f32 := Host.absf main_arg0
  let main_cst : FVec F S_ .f32 := constant S_ .f32 0x7F800000#32
  let main_v1 : FVec F S64x784 .f32 := broadcastInDim S64x784 ![] bcast_S_S64x784 main_cst
  let main_v2 : IVec S64x784 1 := cmpf .olt main_v0 main_v1
  let main_c : IVec S_ 1 := constantI S_ 1 1#1
  let main_v3 : IVec S_ 1 := (fun x v => Host.reduce IntOp.andi x v reducesTo_S64x784_S_d0_1 h_S_) main_v2 main_c
  let main_v4 : FVec F S784x4096 .f32 := Host.absf main_arg1
  let main_cst_0 : FVec F S_ .f32 := constant S_ .f32 0x7F800000#32
  let main_v5 : FVec F S784x4096 .f32 := broadcastInDim S784x4096 ![] bcast_S_S784x4096 main_cst_0
  let main_v6 : IVec S784x4096 1 := cmpf .olt main_v4 main_v5
  let main_c_1 : IVec S_ 1 := constantI S_ 1 1#1
  let main_v7 : IVec S_ 1 := (fun x v => Host.reduce IntOp.andi x v reducesTo_S784x4096_S_d0_1 h_S_) main_v6 main_c_1
  let main_v8 : IVec S_ 1 := andi main_v3 main_v7
  let main_v9 : FVec F S100x4096 .f32 := Host.absf main_arg2
  let main_cst_2 : FVec F S_ .f32 := constant S_ .f32 0x7F800000#32
  let main_v10 : FVec F S100x4096 .f32 := broadcastInDim S100x4096 ![] bcast_S_S100x4096 main_cst_2
  let main_v11 : IVec S100x4096 1 := cmpf .olt main_v9 main_v10
  let main_c_3 : IVec S_ 1 := constantI S_ 1 1#1
  let main_v12 : IVec S_ 1 := (fun x v => Host.reduce IntOp.andi x v reducesTo_S100x4096_S_d0_1 h_S_) main_v11 main_c_3
  let main_v13 : IVec S_ 1 := andi main_v8 main_v12
  let main_v14 : FVec F S10x4096 .f32 := Host.absf main_arg3
  let main_cst_4 : FVec F S_ .f32 := constant S_ .f32 0x7F800000#32
  let main_v15 : FVec F S10x4096 .f32 := broadcastInDim S10x4096 ![] bcast_S_S10x4096 main_cst_4
  let main_v16 : IVec S10x4096 1 := cmpf .olt main_v14 main_v15
  fn_part1 (F := F) main_v13 main_v16
-- ==== Kernel.lean ====
abbrev S64x784 : Shape := ⟨2, ![64, 784]⟩
abbrev S784x4096 : Shape := ⟨2, ![784, 4096]⟩
abbrev S100x4096 : Shape := ⟨2, ![100, 4096]⟩
abbrev S10x4096 : Shape := ⟨2, ![10, 4096]⟩
abbrev S_ : Shape := ⟨0, ![]⟩
abbrev S128 : Shape := ⟨1, ![128]⟩
abbrev S64x784x1 : Shape := ⟨3, ![64, 784, 1]⟩
abbrev S1x1x128 : Shape := ⟨3, ![1, 1, 128]⟩
abbrev S64x784x128 : Shape := ⟨3, ![64, 784, 128]⟩
abbrev S50176x128 : Shape := ⟨2, ![50176, 128]⟩
abbrev S128x4096 : Shape := ⟨2, ![128, 4096]⟩
abbrev S64x4096 : Shape := ⟨2, ![64, 4096]⟩
abbrev S784x1024 : Shape := ⟨2, ![784, 1024]⟩
abbrev S128x1024 : Shape := ⟨2, ![128, 1024]⟩
abbrev S64x1024 : Shape := ⟨2, ![64, 1024]⟩
abbrev S784x128 : Shape := ⟨2, ![784, 128]⟩
abbrev S1024 : Shape := ⟨1, ![1024]⟩
abbrev S1x1024 : Shape := ⟨2, ![1, 1024]⟩
abbrev S4096x10 : Shape := ⟨2, ![4096, 10]⟩
abbrev S64x10 : Shape := ⟨2, ![64, 10]⟩

abbrev nBuf : Space → Nat
  | .hbm => 32
  | .vmem => 7
  | .smem => 0
  | _ => 0

abbrev bufTy : (tb : Table) → Fin (tcTables nBuf tb) → BufTy
  | .hbm, ⟨0, _⟩ => ⟨S64x784, .f32⟩
  | .hbm, ⟨1, _⟩ => ⟨S784x4096, .f32⟩
  | .hbm, ⟨2, _⟩ => ⟨S100x4096, .f32⟩
  | .hbm, ⟨3, _⟩ => ⟨S10x4096, .f32⟩
  | .hbm, ⟨4, _⟩ => ⟨S_, .f32⟩
  | .hbm, ⟨5, _⟩ => ⟨S64x784, .f32⟩
  | .hbm, ⟨6, _⟩ => ⟨S64x784, .f32⟩
  | .hbm, ⟨7, _⟩ => ⟨S64x784, .f32⟩
  | .hbm, ⟨8, _⟩ => ⟨S_, .i32⟩
  | .hbm, ⟨9, _⟩ => ⟨S_, .i32⟩
  | .hbm, ⟨10, _⟩ => ⟨S_, .f32⟩
  | .hbm, ⟨11, _⟩ => ⟨S64x784, .f32⟩
  | .hbm, ⟨12, _⟩ => ⟨S64x784, .f32⟩
  | .hbm, ⟨13, _⟩ => ⟨S_, .f32⟩
  | .hbm, ⟨14, _⟩ => ⟨S64x784, .f32⟩
  | .hbm, ⟨15, _⟩ => ⟨S64x784, .f32⟩
  | .hbm, ⟨16, _⟩ => ⟨S64x784, .i32⟩
  | .hbm, ⟨17, _⟩ => ⟨S128, .i32⟩
  | .hbm, ⟨18, _⟩ => ⟨S64x784x1, .i32⟩
  | .hbm, ⟨19, _⟩ => ⟨S1x1x128, .i32⟩
  | .hbm, ⟨20, _⟩ => ⟨S64x784x128, .i32⟩
  | .hbm, ⟨21, _⟩ => ⟨S64x784x128, .i32⟩
  | .hbm, ⟨22, _⟩ => ⟨S64x784x128, .i1⟩
  | .hbm, ⟨23, _⟩ => ⟨S64x784x128, .bf16⟩
  | .hbm, ⟨24, _⟩ => ⟨S50176x128, .bf16⟩
  | .hbm, ⟨25, _⟩ => ⟨S_, .i32⟩
  | .hbm, ⟨26, _⟩ => ⟨S_, .f32⟩
  | .hbm, ⟨27, _⟩ => ⟨S128x4096, .f32⟩
  | .hbm, ⟨28, _⟩ => ⟨S128x4096, .bf16⟩
  | .hbm, ⟨29, _⟩ => ⟨S64x4096, .f32⟩
  | .hbm, ⟨30, _⟩ => ⟨S4096x10, .f32⟩
  | .hbm, ⟨31, _⟩ => ⟨S64x10, .f32⟩
  | .local _ .vmem, ⟨0, _⟩ => ⟨S50176x128, .bf16⟩
  | .local _ .vmem, ⟨1, _⟩ => ⟨S784x1024, .f32⟩
  | .local _ .vmem, ⟨2, _⟩ => ⟨S784x1024, .f32⟩
  | .local _ .vmem, ⟨3, _⟩ => ⟨S128x1024, .bf16⟩
  | .local _ .vmem, ⟨4, _⟩ => ⟨S128x1024, .bf16⟩
  | .local _ .vmem, ⟨5, _⟩ => ⟨S64x1024, .f32⟩
  | .local _ .vmem, ⟨6, _⟩ => ⟨S64x1024, .f32⟩
  | _, _ => ⟨S64x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_c_0 : Ref sig .tc := ⟨.hbm, 9, rfl⟩
abbrev main_call1_v0 : Ref sig .tc := ⟨.hbm, 10, rfl⟩
abbrev main_call1_v1 : Ref sig .tc := ⟨.hbm, 11, rfl⟩
abbrev main_call1_v2 : Ref sig .tc := ⟨.hbm, 12, rfl⟩
abbrev main_call1_v3 : Ref sig .tc := ⟨.hbm, 13, rfl⟩
abbrev main_call1_v4 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_1 : Ref sig .tc := ⟨.hbm, 25, rfl⟩
abbrev main_call2_v0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c64_i32 : BitVec 32 := 64#32
  let v3 : BitVec 32 := Scalar.addi c0_i32 c64_i32
  let c1_i32 : BitVec 32 := 1#32
  ⟨c0_i32, v3, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c784_i32 : BitVec 32 := 784#32
  let v4 : BitVec 32 := Scalar.muli arg5 c784_i32
  v4
def k0_off1 (k0_t1 : Fin k0_t1_loop.trips) : Fin 2 → Nat :=
  let c0_i32 : BitVec 32 := 0#32
  let c1_i32 : BitVec 32 := 1#32
  let arg5 : BitVec 32 := Scf.iv c0_i32 c1_i32 k0_t1
  let c784_i32 : BitVec 32 := 784#32
  let v4 : BitVec 32 := Scalar.muli arg5 c784_i32
  let v5 : BitVec 32 := v4
  let v6 : Index := Scalar.indexCast v5
  let c0_4 : Index := 0#32
  ![v6.toNat, 0]
def k0_off2 (k0_t1 : Fin k0_t1_loop.trips) : Fin 2 → Nat :=
  let c0_i32 : BitVec 32 := 0#32
  let c1_i32 : BitVec 32 := 1#32
  let arg5 : BitVec 32 := Scf.iv c0_i32 c1_i32 k0_t1
  let v17 : Index := Scalar.indexCast arg5
  let c0_9 : Index := 0#32
  ![v17.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S50176x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S784x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S64x784 : S_.BroadcastsInDim S64x784 (![] : Fin 0 → Fin S64x784.rank)
  bcast_S64x784_S64x784x1_0_1 : S64x784.BroadcastsInDim S64x784x1 (![0, 1] : Fin 2 → Fin S64x784x1.rank)
  bcast_S128_S1x1x128_2 : S128.BroadcastsInDim S1x1x128 (![2] : Fin 1 → Fin S1x1x128.rank)
  bcast_S64x784x1_S64x784x128_0_1_2 : S64x784x1.BroadcastsInDim S64x784x128 (![0, 1, 2] : Fin 3 → Fin S64x784x128.rank)
  bcast_S1x1x128_S64x784x128_0_1_2 : S1x1x128.BroadcastsInDim S64x784x128 (![0, 1, 2] : Fin 3 → Fin S64x784x128.rank)
  shapeCasts_S64x784x128_S50176x128 : S64x784x128.ShapeCasts S50176x128
  pads_S100x4096_S128x4096_0280_000 : S100x4096.Pads (![0, 0] : Fin 2 → Nat) ![28, 0] ![0, 0] S128x4096
  h_S_ : 0 < S_.numel
  bitsLt_bf16_f32 : FTy.bits .bf16 < FTy.bits .f32
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S784x1024_S784x1024_0_0 : ∀ a, (![0, 0] : Fin 2 → Nat) a + S784x1024.size a ≤ S784x1024.size a
  h_S784x1024 : 0 < S784x1024.numel
  h_S784x128 : 0 < S784x128.numel
  shapeCasts_S784x128_S784x128 : S784x128.ShapeCasts S784x128
  reduces_S784x1024_S1024 : S784x1024.Reduces [0] S1024
  h_S1x1024 : 0 < S1x1024.numel
  shapeCasts_S1x1024_S1024 : S1x1024.ShapeCasts S1024
  shapeCasts_S1024_S1x1024 : S1024.ShapeCasts S1x1024
  transposes_S10x4096_S4096x10_1_0 : S10x4096.Transposes [1, 0] S4096x10
  dot_S784x128_S128x1024_S784x1024_1_0_0_1_n_n_wf : DotDims.WF S784x128 S128x1024 S784x1024 [1] [0] [0] [1] [] []
  dot_S64x4096_S4096x10_S64x10_1_0_0_1_n_n_wf : DotDims.WF S64x4096 S4096x10 S64x10 [1] [0] [0] [1] [] []
  hrank0 : 0 < grid0.rank
  k0_t1_ok : k0_t1_loop.OK
  k0_mult1_dvd : ∀ k0_t1 : Fin k0_t1_loop.trips, 16 ∣ (k0_mult1 k0_t1).toNat
  k0_off1_inb : ∀ k0_t1 : Fin k0_t1_loop.trips, ∀ a, (k0_off1 k0_t1) a + S784x128.size a ≤ S50176x128.size a
  k0_off2_inb : ∀ k0_t1 : Fin k0_t1_loop.trips, ∀ a, (k0_off2 k0_t1) a + S1x1024.size a ≤ S64x1024.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S50176x128.size a ≤ S50176x128.size a
  hwx0_0 : ∀ i : grid0.Coords, EltTy.bits .bf16 = 32 ∨ (Rect.block (s := S50176x128) S50176x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S784x1024.size a ≤ S784x4096.size a
  hwx0_1 : ∀ i : grid0.Coords, EltTy.bits .f32 = 32 ∨ (Rect.block (s := S784x4096) S784x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S128x4096.size a
  hwx0_2 : ∀ i : grid0.Coords, EltTy.bits .bf16 = 32 ∨ (Rect.block (s := S128x4096) S128x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x1024.size a ≤ S64x4096.size a
  hwx0_3 : ∀ i : grid0.Coords, EltTy.bits .f32 = 32 ∨ (Rect.block (s := S64x4096) S64x1024.size (cc0_transform_3 i) (hinb0_3 i)).WholeWords (EltTy.packing .f32)

variable [Facts₀]

def dot_S784x128_S128x1024_S784x1024_1_0_0_1_n_n : DotDims S784x128 S128x1024 S784x1024 where
  lhsContracting := [1]
  rhsContracting := [0]
  lhsNonContracting := [0]
  rhsNonContracting := [1]
  lhsBatch := []
  rhsBatch := []
  wf := dot_S784x128_S128x1024_S784x1024_1_0_0_1_n_n_wf
def dot_S64x4096_S4096x10_S64x10_1_0_0_1_n_n : DotDims S64x4096 S4096x10 S64x10 where
  lhsContracting := [1]
  rhsContracting := [0]
  lhsNonContracting := [0]
  rhsNonContracting := [1]
  lhsBatch := []
  rhsBatch := []
  wf := dot_S64x4096_S4096x10_S64x10_1_0_0_1_n_n_wf

abbrev win0_0 : Pipeline.Window sig grid0 :=
  Pipeline.Window.ofSpec (Memref.whole main_v12) S50176x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S784x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S64x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x784 : Shape := ⟨2, ![64, 784]⟩
abbrev S784x4096 : Shape := ⟨2, ![784, 4096]⟩
abbrev S100x4096 : Shape := ⟨2, ![100, 4096]⟩
abbrev S10x4096 : Shape := ⟨2, ![10, 4096]⟩
abbrev S_ : Shape := ⟨0, ![]⟩
abbrev S64x784x1 : Shape := ⟨3, ![64, 784, 1]⟩
abbrev S64x784x4096 : Shape := ⟨3, ![64, 784, 4096]⟩
abbrev S1x784x4096 : Shape := ⟨3, ![1, 784, 4096]⟩
abbrev S64x4096 : Shape := ⟨2, ![64, 4096]⟩
abbrev S4096x10 : Shape := ⟨2, ![4096, 10]⟩
abbrev S64x10 : Shape := ⟨2, ![64, 10]⟩

abbrev nBuf : Space → Nat
  | .hbm => 42
  | .vmem => 0
  | .smem => 0
  | _ => 0

abbrev bufTy : (tb : Table) → Fin (tcTables nBuf tb) → BufTy
  | .hbm, ⟨0, _⟩ => ⟨S64x784, .f32⟩
  | .hbm, ⟨1, _⟩ => ⟨S784x4096, .f32⟩
  | .hbm, ⟨2, _⟩ => ⟨S100x4096, .f32⟩
  | .hbm, ⟨3, _⟩ => ⟨S10x4096, .f32⟩
  | .hbm, ⟨4, _⟩ => ⟨S_, .f32⟩
  | .hbm, ⟨5, _⟩ => ⟨S64x784, .f32⟩
  | .hbm, ⟨6, _⟩ => ⟨S64x784, .f32⟩
  | .hbm, ⟨7, _⟩ => ⟨S64x784, .f32⟩
  | .hbm, ⟨8, _⟩ => ⟨S_, .i32⟩
  | .hbm, ⟨9, _⟩ => ⟨S_, .i32⟩
  | .hbm, ⟨10, _⟩ => ⟨S_, .f32⟩
  | .hbm, ⟨11, _⟩ => ⟨S64x784, .f32⟩
  | .hbm, ⟨12, _⟩ => ⟨S64x784, .f32⟩
  | .hbm, ⟨13, _⟩ => ⟨S_, .f32⟩
  | .hbm, ⟨14, _⟩ => ⟨S64x784, .f32⟩
  | .hbm, ⟨15, _⟩ => ⟨S64x784, .f32⟩
  | .hbm, ⟨16, _⟩ => ⟨S64x784, .i32⟩
  | .hbm, ⟨17, _⟩ => ⟨S_, .i32⟩
  | .hbm, ⟨18, _⟩ => ⟨S64x784, .i32⟩
  | .hbm, ⟨19, _⟩ => ⟨S64x784, .i1⟩
  | .hbm, ⟨20, _⟩ => ⟨S_, .i32⟩
  | .hbm, ⟨21, _⟩ => ⟨S64x784, .i32⟩
  | .hbm, ⟨22, _⟩ => ⟨S64x784, .i32⟩
  | .hbm, ⟨23, _⟩ => ⟨S64x784, .i32⟩
  | .hbm, ⟨24, _⟩ => ⟨S64x784x1, .i32⟩
  | .hbm, ⟨25, _⟩ => ⟨S64x784x4096, .f32⟩
  | .hbm, ⟨26, _⟩ => ⟨S1x784x4096, .f32⟩
  | .hbm, ⟨27, _⟩ => ⟨S64x784x4096, .f32⟩
  | .hbm, ⟨28, _⟩ => ⟨S64x784x4096, .f32⟩
  | .hbm, ⟨29, _⟩ => ⟨S_, .f32⟩
  | .hbm, ⟨30, _⟩ => ⟨S64x4096, .f32⟩
  | .hbm, ⟨31, _⟩ => ⟨S_, .f32⟩
  | .hbm, ⟨32, _⟩ => ⟨S64x4096, .f32⟩
  | .hbm, ⟨33, _⟩ => ⟨S64x4096, .i1⟩
  | .hbm, ⟨34, _⟩ => ⟨S_, .f32⟩
  | .hbm, ⟨35, _⟩ => ⟨S_, .f32⟩
  | .hbm, ⟨36, _⟩ => ⟨S64x4096, .f32⟩
  | .hbm, ⟨37, _⟩ => ⟨S64x4096, .f32⟩
  | .hbm, ⟨38, _⟩ => ⟨S64x4096, .f32⟩
  | .hbm, ⟨39, _⟩ => ⟨S64x4096, .f32⟩
  | .hbm, ⟨40, _⟩ => ⟨S4096x10, .f32⟩
  | .hbm, ⟨41, _⟩ => ⟨S64x10, .f32⟩
  | _, _ => ⟨S64x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_c_0 : Ref sig .tc := ⟨.hbm, 9, rfl⟩
abbrev main_call1_v0 : Ref sig .tc := ⟨.hbm, 10, rfl⟩
abbrev main_call1_v1 : Ref sig .tc := ⟨.hbm, 11, rfl⟩
abbrev main_call1_v2 : Ref sig .tc := ⟨.hbm, 12, rfl⟩
abbrev main_call1_v3 : Ref sig .tc := ⟨.hbm, 13, rfl⟩
abbrev main_call1_v4 : Ref sig .tc := ⟨.hbm, 14, rfl⟩
abbrev main_v3 : Ref sig .tc := ⟨.hbm, 15, rfl⟩
abbrev main_v4 : Ref sig .tc := ⟨.hbm, 16, rfl⟩
abbrev main_c_1 : Ref sig .tc := ⟨.hbm, 17, rfl⟩
abbrev main_v5 : Ref sig .tc := ⟨.hbm, 18, rfl⟩
abbrev main_v6 : Ref sig .tc := ⟨.hbm, 19, rfl⟩
abbrev main_c_2 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_cst_5 : Ref sig .tc := ⟨.hbm, 34, rfl⟩
abbrev main_cst_6 : Ref sig .tc := ⟨.hbm, 35, rfl⟩
abbrev main_call2_v0 : Ref sig .tc := ⟨.hbm, 36, rfl⟩
abbrev main_call2_v1 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩

abbrev nD : Nat := 1
abbrev τ : Topo := Topo.v7x

variable {F : FTy → Type} [FloatOps F]

class Facts₀ : Prop where
  bcast_S_S64x784 : S_.BroadcastsInDim S64x784 (![] : Fin 0 → Fin S64x784.rank)
  bcast_S64x784_S64x784x1_0_1 : S64x784.BroadcastsInDim S64x784x1 (![0, 1] : Fin 2 → Fin S64x784x1.rank)
  bcast_S784x4096_S1x784x4096_1_2 : S784x4096.BroadcastsInDim S1x784x4096 (![1, 2] : Fin 2 → Fin S1x784x4096.rank)
  bcast_S1x784x4096_S64x784x4096_0_1_2 : S1x784x4096.BroadcastsInDim S64x784x4096 (![0, 1, 2] : Fin 3 → Fin S64x784x4096.rank)
  reducesTo_S64x784x4096_S64x4096_d1 : S64x784x4096.ReducesTo [1] S64x4096
  h_S_ : 0 < S_.numel
  bcast_S_S64x4096 : S_.BroadcastsInDim S64x4096 (![] : Fin 0 → Fin S64x4096.rank)
  transposes_S10x4096_S4096x10_1_0 : S10x4096.Transposes [1, 0] S4096x10
  gather_S100x4096_S64x784x1_S64x784x4096_2_0_n_n_0_2_14096_wf : GatherDims.WF S100x4096 S64x784x1 S64x784x4096 [2] [0] [] [0] [] 2 ![1, 4096]
  dot_S64x4096_S4096x10_S64x10_1_0_0_1_n_n_wf : DotDims.WF S64x4096 S4096x10 S64x10 [1] [0] [0] [1] [] []

variable [Facts₀]

def gather_S100x4096_S64x784x1_S64x784x4096_2_0_n_n_0_2_14096 : GatherDims S100x4096 S64x784x1 S64x784x4096 where
  offsetDims := [2]
  collapsedSliceDims := [0]
  operandBatchingDims := []
  startIndicesBatchingDims := []
  startIndexMap := [0]
  indexVectorDim := 2
  sliceSizes := ![1, 4096]
  wf := gather_S100x4096_S64x784x1_S64x784x4096_2_0_n_n_0_2_14096_wf
def dot_S64x4096_S4096x10_S64x10_1_0_0_1_n_n : DotDims S64x4096 S4096x10 S64x10 where
  lhsContracting := [1]
  rhsContracting := [0]
  lhsNonContracting := [0]
  rhsNonContracting := [1]
  lhsBatch := []
  rhsBatch := []
  wf := dot_S64x4096_S4096x10_S64x10_1_0_0_1_n_n_wf

class Facts : Prop extends Facts₀ where

variable [Facts]
-- ==== Proof.Spec.lean ====
/-
  The specification: what both programs compute, entry by entry, on the extended reals.

  Every feature value x is sent to a LEVEL: x is multiplied by 99, rounded to the nearest integer (ties to even),
  clipped below at 0 and above at 99, and truncated to a 32-bit word.  Whatever x is — finite or infinite — the
  clipped value lies in [0, 99] (max with 0 is ≥ 0; min with 99 is ≤ 99 and, 0 being ≤ 99, still ≥ 0), so it is a
  real number, its truncation is an integer of [0, 99], and the word is one of 0, …, 99.

  Sample b's encoding at coordinate d is the SIGN of a bound-and-bundled sum: over the 784 features s, the level
  table's row at the level of x(b, s), taken at column d, times the id table's entry (s, d); the sign is +1 when the
  sum is > 0 and −1 otherwise.
-/
import Idealize.ShloMosaic.PureOps.Ideal
import Idealize.ShloMosaic.Lib.ValueIdx

noncomputable section

open scoped BigOperators

namespace Cert.Spec

open Idealize.ShloMosaic Idealize.ShloMosaic.ValueIdx

/-- +1 where the argument is > 0, −1 elsewhere (the three constants as their float words). -/
def signPos (z : Ideal .f32) : Ideal .f32 :=
  Scalar.select (FloatOps.cmpf (F := Ideal) (φ := .f32) .ogt z (FloatOps.ofBits (F := Ideal) .f32 0x00000000#32))
    (FloatOps.ofBits (F := Ideal) .f32 0x3F800000#32) (FloatOps.ofBits (F := Ideal) .f32 0xBF800000#32)

/-- The level word of a feature value: 99·x rounded, clipped to [0, 99], truncated to 32 bits. -/
def levelWord (x : Ideal .f32) : BitVec 32 :=
  FloatOps.fptosi (F := Ideal) (φ := .f32) 32
    (FloatOps.minimumf (F := Ideal) (φ := .f32) (FloatOps.sitofp (F := Ideal) .f32 (99#32 : BitVec 32))
      (FloatOps.maximumf (F := Ideal) (φ := .f32) (FloatOps.sitofp (F := Ideal) .f32 (0#32 : BitVec 32))
        (FloatOps.hostUnary (F := Ideal) (φ := .f32) .roundeven
          (FloatOps.mulf (F := Ideal) (φ := .f32) x (FloatOps.ofBits (F := Ideal) .f32 0x42C60000#32)))))

/-- The level word is one of 0, …, 99, for every extended real. -/
theorem levelWord_range (x : Ideal .f32) : ∃ n : ℕ, n < 100 ∧ levelWord x = BitVec.ofNat 32 n := by
  unfold levelWord
  generalize FloatOps.hostUnary (F := Ideal) (φ := .f32) .roundeven
    (FloatOps.mulf (F := Ideal) (φ := .f32) x (FloatOps.ofBits (F := Ideal) .f32 0x42C60000#32)) = r
  have h99 : FloatOps.sitofp (F := Ideal) .f32 (99#32 : BitVec 32) = ((99 : ℝ) : EReal) := by
    show ((((99#32 : BitVec 32).toInt : ℤ) : ℝ) : EReal) = _
    rw [show (99#32 : BitVec 32).toInt = 99 by decide]; norm_num
  have h0 : FloatOps.sitofp (F := Ideal) .f32 (0#32 : BitVec 32) = ((0 : ℝ) : EReal) := by
    show ((((0#32 : BitVec 32).toInt : ℤ) : ℝ) : EReal) = _
    rw [show (0#32 : BitVec 32).toInt = 0 by decide]; norm_num
  rw [h99, h0]
  show ∃ n : ℕ, n < 100 ∧ Ideal.fptosi 32 (min ((99 : ℝ) : EReal) (max ((0 : ℝ) : EReal) r)) = BitVec.ofNat 32 n
  have hy0 : ((0 : ℝ) : EReal) ≤ min ((99 : ℝ) : EReal) (max ((0 : ℝ) : EReal) r) :=
    le_min (by exact_mod_cast (by norm_num : (0 : ℝ) ≤ 99)) (le_max_left _ _)
  have hy1 : min ((99 : ℝ) : EReal) (max ((0 : ℝ) : EReal) r) ≤ ((99 : ℝ) : EReal) := min_le_left _ _
  generalize min ((99 : ℝ) : EReal) (max ((0 : ℝ) : EReal) r) = y at hy0 hy1
  induction y using EReal.rec with
  | bot => exact absurd hy0 (by simp)
  | top => exact absurd hy1 (by simp)
  | coe t =>
    have ht0 : (0 : ℝ) ≤ t := by exact_mod_cast hy0
    have ht1 : t ≤ 99 := by exact_mod_cast hy1
    have hf0 : 0 ≤ ⌊t⌋ := Int.floor_nonneg.mpr ht0
    have hf1 : ⌊t⌋ ≤ 99 := by
      have h := Int.floor_le t
      have : ((⌊t⌋ : ℤ) : ℝ) ≤ 99 := h.trans ht1
      exact_mod_cast this
    refine ⟨⌊t⌋.toNat, by omega, ?_⟩
    unfold Ideal.fptosi
    rw [Ideal.toIntClamped_coe, if_pos ht0]
    have e : max (-((2 ^ (32 - 1) : ℕ) : ℤ)) (min (((2 ^ (32 - 1) : ℕ) : ℤ) - 1) ⌊t⌋) = ((⌊t⌋.toNat : ℕ) : ℤ) := by
      have h2 : ((2 ^ (32 - 1) : ℕ) : ℤ) = 2147483648 := by norm_num
      rw [h2]; omega
    rw [e]
    exact BitVec.ofInt_natCast _ _

/-- The level of a feature value, as a row number of the 100-row level table. -/
def levelOf (x : Ideal .f32) : Fin 100 :=
  ⟨(levelWord x).toNat, by
    obtain ⟨n, hn, e⟩ := levelWord_range x
    rw [e, BitVec.toNat_ofNat]; exact lt_of_le_of_lt (Nat.mod_le _ _) hn⟩

theorem levelWord_eq (x : Ideal .f32) : levelWord x = BitVec.ofNat 32 (levelOf x).val := by
  show levelWord x = BitVec.ofNat 32 (levelWord x).toNat
  rw [BitVec.ofNat_toNat, BitVec.setWidth_eq]

/-- Sample b's encoding at coordinate d. -/
def enc (x : (⟨2, ![64, 784]⟩ : Shape).Idx → Ideal .f32) (w : (⟨2, ![784, 4096]⟩ : Shape).Idx → Ideal .f32)
    (t : (⟨2, ![100, 4096]⟩ : Shape).Idx → Ideal .f32) (b : Fin 64) (d : Fin 4096) : Ideal .f32 :=
  signPos (∑ s : Fin 784, t (ix2 (levelOf (x (ix2 b s))) d) * w (ix2 s d))

end Cert.Spec

end
-- ==== Proof.RefValue.lean ====
/-
  The reference computes the specification's encoding.

  The reference forms the same level word for every feature value, adds 100 to it when it is negative (it never is:
  a level word is one of 0, …, 99), and GATHERS the level table's rows at those indices.  A gather reads its start
  index as a signed integer and clamps it into [0, 99]; a level read signed is itself and is already in range; so
  the gathered entry at (b, s, d) is the level table at (level of x(b, s), d).  It then multiplies by the id entry
  (s, d), sums over the 784 features starting from 0, and takes the sign (+1 where the sum is > 0, else −1).
-/
import proofs.«140100_j22093311771138_2_alg».proof.Proof.Gen.ReferenceIdeal.Read
import proofs.«140100_j22093311771138_2_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

open scoped BigOperators

namespace Cert.ReferenceIdeal.RefValue

open Cert.ReferenceIdeal Cert.ReferenceIdeal.Gen Cert.ReferenceIdeal.Read Cert.Spec
open Idealize.ShloMosaic Idealize.ShloMosaic.ValueIdx

/-- The gather's dimension record. -/
abbrev GD : GatherDims S100x4096 S64x784x1 S64x784x4096 := gather_S100x4096_S64x784x1_S64x784x4096_2_0_n_n_0_2_14096

/-- A word of 0, …, 99 is not negative, and read signed it is itself. -/
theorem word_facts : ∀ n : ℕ, n < 100 →
    IntOp.cmpi .slt (BitVec.ofNat 32 n) 0#32 = 0#1 ∧ (BitVec.ofNat 32 n).toInt.toNat = n := by decide +kernel

/-- The gather at (b, s, d): the table at the start index of (b, s), read signed and clamped to 99, column d. -/
theorem gather_apply (x2 : FVec Ideal S100x4096 .f32) (idx : IVec S64x784x1 32) (b : Fin 64) (s : Fin 784) (d : Fin 4096) :
    Host.gather GD x2 idx (ix3 b s d)
      = x2 (ix2 (⟨min (idx (ix3 b s (0 : Fin 1))).toInt.toNat 99, by omega⟩ : Fin 100) d) := by
  unfold Host.gather
  congr 1
  funext a
  refine Fin.ext ?_
  match a with
  | ⟨0, _⟩ =>
    show GD.start (ix3 b s d) idx 0 + GD.batchCoord (ix3 b s d) 0 + GD.offCoord (ix3 b s d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ GD.startIndexMap from List.mem_singleton.mpr rfl)]
    have hsi : GD.siIdx (ix3 b s d) ⟨List.idxOf (0 : Fin 2) GD.startIndexMap,
        List.idxOf_lt_length_iff.2 (List.mem_singleton.mpr rfl)⟩ = ix3 b s (0 : Fin 1) := by
      funext q; refine Fin.ext ?_
      match q with
      | ⟨0, _⟩ => rfl
      | ⟨1, _⟩ => rfl
      | ⟨2, _⟩ => rfl
    rw [hsi]
    rfl
  | ⟨1, _⟩ =>
    show GD.start (ix3 b s d) idx 1 + GD.batchCoord (ix3 b s d) 1 + GD.offCoord (ix3 b s d) 1 = d.val
    have h1 : GD.start (ix3 b s d) idx 1 = 0 := rfl
    have h2 : GD.batchCoord (ix3 b s d) 1 = 0 := rfl
    have h3 : GD.offCoord (ix3 b s d) 1 = d.val := rfl
    omega

/-- The reference's level word of x(b, s) is the specification's. -/
theorem v4_eq (x0 : (⟨S64x784, .f32⟩ : BufTy).Contents (Elt Ideal)) (b : Fin 64) (s : Fin 784) :
    val_main_v4 (F := Ideal) x0 (ix2 b s) = levelWord (x0 (ix2 b s)) := by
  unfold levelWord
  rw [val_main_v4_apply, val_main_v3_apply, val_main_call1_v4_apply, val_main_call1_v3_apply, val_main_c_0_apply,
    val_main_call1_v2_apply, val_main_call1_v1_apply, val_main_call1_v0_apply, val_main_c_apply, val_main_v2_apply,
    val_main_v1_apply, val_main_v0_apply, val_main_cst_apply]

/-- Adding 100 to a negative index never fires: the normalized index is the level word. -/
theorem v9_eq (x0 : (⟨S64x784, .f32⟩ : BufTy).Contents (Elt Ideal)) (b : Fin 64) (s : Fin 784) :
    val_main_v9 (F := Ideal) x0 (ix2 b s) = levelWord (x0 (ix2 b s)) := by
  rw [val_main_v9_apply, val_main_v6_apply, val_main_v5_apply, val_main_c_1_apply, v4_eq, levelWord_eq,
    (word_facts _ (levelOf (x0 (ix2 b s))).isLt).1, select_zero]

/-- The gathered entry at (b, s, d) is the level table at the level of x(b, s), column d. -/
theorem gathered (x0 : (⟨S64x784, .f32⟩ : BufTy).Contents (Elt Ideal)) (x2 : (⟨S100x4096, .f32⟩ : BufTy).Contents (Elt Ideal))
    (b : Fin 64) (s : Fin 784) (d : Fin 4096) :
    val_main_v11 (F := Ideal) x0 x2 (ix3 b s d) = x2 (ix2 (levelOf (x0 (ix2 b s))) d) := by
  unfold val_main_v11
  refine (gather_apply x2 (val_main_v10 (F := Ideal) x0) b s d).trans ?_
  refine congrArg (fun r : Fin 100 => x2 (ix2 r d)) (Fin.ext ?_)
  show min (val_main_v10 (F := Ideal) x0 (ix3 b s (0 : Fin 1))).toInt.toNat 99 = (levelOf (x0 (ix2 b s))).val
  have ei : idx_main_v10 (ix3 b s (0 : Fin 1)) = ix2 b s := funext fun a => Fin.ext (by
    match a with
    | ⟨0, _⟩ => rfl
    | ⟨1, _⟩ => rfl)
  rw [val_main_v10_apply, ei, v9_eq, levelWord_eq, (word_facts _ (levelOf (x0 (ix2 b s))).isLt).2]
  exact Nat.min_eq_left (by have := (levelOf (x0 (ix2 b s))).isLt; omega)

/-- The reference's encoding stage is the specification's encoding. -/
theorem ref_enc (x0 : (⟨S64x784, .f32⟩ : BufTy).Contents (Elt Ideal)) (x1 : (⟨S784x4096, .f32⟩ : BufTy).Contents (Elt Ideal))
    (x2 : (⟨S100x4096, .f32⟩ : BufTy).Contents (Elt Ideal)) (b : Fin 64) (d : Fin 4096) :
    val_main_v19 (F := Ideal) x0 x1 x2 (ix2 b d) = enc x0 x1 x2 b d := by
  rw [val_main_v19_apply, val_main_v18_apply, val_main_v17_apply, val_main_call2_v0_apply, val_main_call2_v1_apply,
    val_main_cst_5_apply, val_main_cst_6_apply, val_main_v16_apply, val_main_cst_4_apply, val_main_v15_apply,
    val_main_cst_3_apply]
  unfold enc
  show signPos (FloatOps.ofBits (F := Ideal) .f32 0x00000000#32
    + ∑ k : Fin 784, val_main_v14 (F := Ideal) x0 x1 x2 (idx_main_v15 (ix2 b d) k)) = _
  refine congrArg signPos ?_
  rw [show FloatOps.ofBits (F := Ideal) .f32 0x00000000#32 = 0 from Ideal.ofBits_zero_f32, zero_add]
  refine Finset.sum_congr rfl fun s _ => ?_
  have e15 : idx_main_v15 (ix2 b d) s = ix3 b s d := funext fun a => Fin.ext (by
    match a with
    | ⟨0, _⟩ => rfl
    | ⟨1, _⟩ => rfl
    | ⟨2, _⟩ => rfl)
  have e13 : idx_main_v12 (idx_main_v13 (ix3 b s d)) = ix2 s d := funext fun a => Fin.ext (by
    match a with
    | ⟨0, _⟩ => rfl
    | ⟨1, _⟩ => rfl)
  rw [e15, val_main_v14_apply, val_main_v13_apply, val_main_v12_apply, e13, gathered]
  exact mul_comm _ _

end Cert.ReferenceIdeal.RefValue

end
-- ==== Proof.LibOneHot.lean ====
/-
  One-hot selection on the extended reals.

  A graph-convolution layer gathers a row of a table by a source index and adds the scaled row into the row of its
  target index.  Written with dense products against indicator matrices, the gather is
      msg e = (∑ k, [s e = k] · h k) · w e
  and the scatter is
      out n = ∑ e, [d e = n] · msg e .
  On the extended reals `0 · x = 0` and `1 · x = x` for EVERY x (the infinities included), and a finite sum
  whose terms vanish away from one index is the term at that index; so both dense forms collapse to the indexed
  forms with no finiteness hypothesis.  Edges appended with weight 0 contribute `x · 0 = 0`.
-/
import Mathlib.Data.EReal.Operations
import Mathlib.Algebra.BigOperators.Fin

open Finset

namespace Cert.LibOneHot

/-- The indicator of a proposition as an extended real. -/
noncomputable def ind (p : Prop) [Decidable p] : EReal := if p then 1 else 0

theorem ind_mul (p : Prop) [Decidable p] (x : EReal) : ind p * x = if p then x else 0 := by
  unfold ind; split <;> simp

/-- A dense product of an indicator row with a column picks the column's entry at the indicated position:
    `∑ k, [k = s] · f k = f s`, whatever the entries (no finiteness). -/
theorem sum_ind_mul {K : Type} [Fintype K] [DecidableEq K] (s : K) (f : K → EReal) :
    ∑ k, ind (k = s) * f k = f s := by
  simp only [ind_mul]
  rw [Finset.sum_ite_eq' Finset.univ s f]
  simp

/-- The same with the test written the other way round. -/
theorem sum_ind_mul' {K : Type} [Fintype K] [DecidableEq K] (s : K) (f : K → EReal) :
    ∑ k, ind (s = k) * f k = f s := by
  simp only [ind_mul]
  rw [Finset.sum_ite_eq Finset.univ s f]
  simp

/-- When no position is indicated the dense product is zero. -/
theorem sum_ind_mul_none {K : Type} [Fintype K] (p : K → Prop) [DecidablePred p] (hp : ∀ k, ¬ p k) (f : K → EReal) :
    ∑ k, ind (p k) * f k = 0 := by
  refine Finset.sum_eq_zero fun k _ => ?_
  rw [ind_mul, if_neg (hp k)]

/-- A sum over `a + b` positions whose last `b` terms vanish is the sum over the first `a`. -/
theorem sum_castAdd_of_tail_zero {a b : ℕ} (f : Fin (a + b) → EReal) (h : ∀ j : Fin b, f (Fin.natAdd a j) = 0) :
    ∑ e, f e = ∑ e : Fin a, f (Fin.castAdd b e) := by
  rw [Fin.sum_univ_add]
  simp [h]

/-- The scatter side: a dense product of an indicator column against messages is the sum of the messages whose
    target is the row: `∑ e, [d e = n] · g e = ∑ e, if d e = n then g e else 0`. -/
theorem sum_ind_scatter {E : Type} [Fintype E] {T : Type} [DecidableEq T] (d : E → T) (n : T) (g : E → EReal) :
    ∑ e, ind (d e = n) * g e = ∑ e, if d e = n then g e else 0 := by
  simp only [ind_mul]

/-- One layer, padded and dense, against the indexed form.  `a` real edges are followed by `b` appended edges of
    weight zero; every real edge's source `s e` names a row `k` of the table `h` (rows of the padded table beyond the
    real ones are never named).  Then for every target row `n`
      ∑_{e < a+b} [d e = n] · ((∑_k [s e = k] · h k) · w e)  =  ∑_{e < a} if d e = n then h (s e) · w e else 0 . -/
theorem dense_layer_eq {a b : ℕ} {K T : Type} [Fintype K] [DecidableEq K] [DecidableEq T]
    (s : Fin (a + b) → K) (d : Fin (a + b) → T) (w : Fin (a + b) → EReal) (h : K → EReal) (n : T)
    (hw : ∀ j : Fin b, w (Fin.natAdd a j) = 0) :
    ∑ e, ind (d e = n) * ((∑ k, ind (s e = k) * h k) * w e)
      = ∑ e : Fin a, if d (Fin.castAdd b e) = n then h (s (Fin.castAdd b e)) * w (Fin.castAdd b e) else 0 := by
  simp only [sum_ind_mul']
  simp only [ind_mul]
  exact sum_castAdd_of_tail_zero _ (fun j => by rw [hw j, mul_zero]; split <;> rfl)

end Cert.LibOneHot
-- ==== Proof.HostTerms.lean ====
/-
  The two tables the host computes before the kernel is launched, read at an index.

  The ONE-HOT table has a row for every (sample b, feature s) pair — row 784·b + s — and 128 columns; its entry at
  column l is 1 when the level of x(b, s) is l and 0 otherwise.  Since a level is one of 0, …, 99, columns 100 … 127
  are zero throughout.

  The PADDED level table is the 100-row level table followed by 28 rows of zeros.
-/
import proofs.«140100_j22093311771138_2_alg».proof.Proof.Gen.KernelIdeal
import proofs.«140100_j22093311771138_2_alg».proof.Proof.Spec
import proofs.«140100_j22093311771138_2_alg».proof.Proof.LibOneHot
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost

noncomputable section

namespace Cert.KernelIdeal.HostTerms

open Cert.KernelIdeal Cert.KernelIdeal.Gen Cert.Spec Cert.LibOneHot Idealize.ShloMosaic Idealize.ShloMosaic.ValueIdx

/-- The level word of every feature value. -/
def levelWords (x : FVec Ideal S64x784 .f32) : IVec S64x784 32 :=
  fptosi 32 (minimumf (broadcastInDim S64x784 ![] bcast_S_S64x784 (sitofp (F := Ideal) .f32 (constantI S_ 32 99#32)))
    (maximumf (broadcastInDim S64x784 ![] bcast_S_S64x784 (sitofp (F := Ideal) .f32 (constantI S_ 32 0#32)))
      (Host.roundeven (mulf x (broadcastInDim S64x784 ![] bcast_S_S64x784 (constant (F := Ideal) S_ .f32 0x42C60000#32))))))

/-- The one-hot table: levels against the column numbers, as 0 / 1, flattened to (sample, feature) rows. -/
def onehotTable (x : FVec Ideal S64x784 .f32) : FVec Ideal S50176x128 .bf16 :=
  shapeCast S50176x128 (uitofp (F := Ideal) .bf16 (cmpi .eq
    (broadcastInDim S64x784x128 ![0, 1, 2] bcast_S64x784x1_S64x784x128_0_1_2
      (broadcastInDim S64x784x1 ![0, 1] bcast_S64x784_S64x784x1_0_1 (levelWords x)))
    (broadcastInDim S64x784x128 ![0, 1, 2] bcast_S1x1x128_S64x784x128_0_1_2
      (broadcastInDim S1x1x128 ![2] bcast_S128_S1x1x128_2 (iotaInDim S128 32 0)))))
    shapeCasts_S64x784x128_S50176x128

/-- The level table with 28 zero rows appended. -/
def paddedTable (t : FVec Ideal S100x4096 .f32) : FVec Ideal S128x4096 .bf16 :=
  truncf .bf16 (pad S128x4096 ![0, 0] ![28, 0] ![0, 0] t (sitofp (F := Ideal) .f32 (constantI S_ 32 0#32))
    pads_S100x4096_S128x4096_0280_000 h_S_) bitsLt_bf16_f32

theorem levelWords_apply (x : FVec Ideal S64x784 .f32) (b : Fin 64) (s : Fin 784) :
    levelWords x (ix2 b s) = levelWord (x (ix2 b s)) := by
  unfold levelWords levelWord
  show FloatOps.fptosi 32 (FloatOps.minimumf
      (broadcastInDim S64x784 ![] bcast_S_S64x784 (sitofp (F := Ideal) .f32 (constantI S_ 32 99#32)) (ix2 b s))
    (FloatOps.maximumf
      (broadcastInDim S64x784 ![] bcast_S_S64x784 (sitofp (F := Ideal) .f32 (constantI S_ 32 0#32)) (ix2 b s))
      (FloatOps.hostUnary .roundeven (FloatOps.mulf (x (ix2 b s))
        (broadcastInDim S64x784 ![] bcast_S_S64x784 (constant (F := Ideal) S_ .f32 0x42C60000#32) (ix2 b s)))))) = _
  rw [broadcastInDim_scalar_apply, broadcastInDim_scalar_apply, broadcastInDim_scalar_apply]
  rfl

/-- A one-bit equality test, read as a number, is the indicator. -/
theorem uitofp_eq_ind (a c : ℕ) (ha : a < 2 ^ 32) (hc : c < 2 ^ 32) :
    FloatOps.uitofp (F := Ideal) .bf16 (IntOp.cmpi .eq (BitVec.ofNat 32 a) (BitVec.ofNat 32 c)) = ind (c = a) := by
  show (((BitVec.ofBool (BitVec.ofNat 32 a == BitVec.ofNat 32 c)).toNat : ℝ) : EReal) = _
  unfold ind
  by_cases h : c = a
  · subst h; simp
  · have hne : BitVec.ofNat 32 a ≠ BitVec.ofNat 32 c := fun e => h (by
      have := congrArg BitVec.toNat e
      rw [BitVec.toNat_ofNat, BitVec.toNat_ofNat, Nat.mod_eq_of_lt ha, Nat.mod_eq_of_lt hc] at this
      exact this.symm)
    rw [if_neg h]
    have : (BitVec.ofNat 32 a == BitVec.ofNat 32 c) = false := by simpa using hne
    rw [this]; simp

/-- Row 784·b + s of the one-hot table at column l: 1 when l is the level of x(b, s), else 0. -/
theorem onehot_apply (x : FVec Ideal S64x784 .f32) (b : Fin 64) (s : Fin 784) (l : Fin 128) (r : Fin 50176)
    (hr : r.val = b.val * 784 + s.val) :
    onehotTable x (ix2 r l) = ind (l.val = (levelOf (x (ix2 b s))).val) := by
  unfold onehotTable
  refine (shapeCast_apply _ shapeCasts_S64x784x128_S50176x128 (ix2 r l) (ix3 b s l) (by
    rw [Shape.rowMajor_val_three, Shape.rowMajor_val_two]
    show (b.val * 784 + s.val) * 128 + l.val = r.val * 128 + l.val
    rw [hr])).trans ?_
  show FloatOps.uitofp (F := Ideal) .bf16 (IntOp.cmpi .eq
    (broadcastInDim S64x784x128 ![0, 1, 2] bcast_S64x784x1_S64x784x128_0_1_2
      (broadcastInDim S64x784x1 ![0, 1] bcast_S64x784_S64x784x1_0_1 (levelWords x)) (ix3 b s l))
    (broadcastInDim S64x784x128 ![0, 1, 2] bcast_S1x1x128_S64x784x128_0_1_2
      (broadcastInDim S1x1x128 ![2] bcast_S128_S1x1x128_2 (iotaInDim S128 32 0)) (ix3 b s l))) = _
  rw [broadcastInDim_apply ![0, 1, 2] bcast_S64x784x1_S64x784x128_0_1_2 _ (ix3 b s l) (ix3 b s (0 : Fin 1)) (by
      intro a; match a with | ⟨0, _⟩ => rfl | ⟨1, _⟩ => rfl | ⟨2, _⟩ => rfl),
    broadcastInDim_apply ![0, 1] bcast_S64x784_S64x784x1_0_1 _ (ix3 b s (0 : Fin 1)) (ix2 b s) (by
      intro a; match a with | ⟨0, _⟩ => rfl | ⟨1, _⟩ => rfl),
    broadcastInDim_apply ![0, 1, 2] bcast_S1x1x128_S64x784x128_0_1_2 _ (ix3 b s l) (ix3 (0 : Fin 1) (0 : Fin 1) l) (by
      intro a; match a with | ⟨0, _⟩ => rfl | ⟨1, _⟩ => rfl | ⟨2, _⟩ => rfl),
    broadcastInDim_apply ![2] bcast_S128_S1x1x128_2 _ (ix3 (0 : Fin 1) (0 : Fin 1) l) (ix1 l) (by
      intro a; match a with | ⟨0, _⟩ => rfl),
    levelWords_apply, levelWord_eq, iotaInDim_apply]
  exact uitofp_eq_ind _ _ (lt_trans (levelOf (x (ix2 b s))).isLt (by norm_num)) (lt_trans l.isLt (by norm_num))

/-- The padded table: the level table on rows 0 … 99, zero on rows 100 … 127. -/
theorem padded_apply (t : FVec Ideal S100x4096 .f32) (l : Fin 128) (col : Fin 4096) :
    paddedTable t (ix2 l col) = if h : l.val < 100 then t (ix2 ⟨l.val, h⟩ col) else 0 := by
  unfold paddedTable
  show pad S128x4096 ![0, 0] ![28, 0] ![0, 0] t (sitofp (F := Ideal) .f32 (constantI S_ 32 0#32))
    pads_S100x4096_S128x4096_0280_000 h_S_ (ix2 l col) = _
  by_cases h : l.val < 100
  · rw [dif_pos h]
    exact pad_apply_of_inside _ _ _ t _ pads_S100x4096_S128x4096_0280_000 h_S_ (ix2 l col) (ix2 ⟨l.val, h⟩ col) (by
      intro a
      match a with
      | ⟨0, _⟩ => show l.val = 0 + l.val * (0 + 1); omega
      | ⟨1, _⟩ => show col.val = 0 + col.val * (0 + 1); omega)
  · rw [dif_neg h]
    refine (pad_apply_of_not_inside _ _ _ t _ pads_S100x4096_S128x4096_0280_000 h_S_ (ix2 l col) (0 : Fin 2) (by
      show ¬(0 ≤ l.val ∧ (l.val - 0) % (0 + 1) = 0 ∧ (l.val - 0) / (0 + 1) < 100)
      intro hh; exact h (by have := hh.2.2; omega))).trans ?_
    show ((((0#32 : BitVec 32).toInt : ℤ) : ℝ) : EReal) = 0
    rw [show (0#32 : BitVec 32).toInt = 0 by decide]; norm_num

end Cert.KernelIdeal.HostTerms

end
-- ==== Proof.HostArrays.lean ====
/-
  The arrays the kernel's input windows are cut from, as the region finds them.

  Window 0 is cut from the one-hot table and window 2 from the padded level table, both written by host operations
  that run before the launch; window 1 is cut from the id table, an argument no host operation writes.  Running those
  host operations from the launch memory gives the two tables as functions of the feature and level arguments.
-/
import proofs.«140100_j22093311771138_2_alg».proof.Proof.Gen.KernelIdeal.Frame
import proofs.«140100_j22093311771138_2_alg».proof.Proof.HostTerms
import Idealize.ShloMosaic.Lib.StableHlo.Run

set_option maxRecDepth 16384

noncomputable section

namespace Cert.KernelIdeal.HostArrays

open Cert.KernelIdeal Cert.KernelIdeal.Gen Cert.KernelIdeal.HostTerms Idealize.ShloMosaic Idealize.ShloMosaic.TcCoe
open Idealize.SL.Sem Idealize.ShloMosaic.StableHlo

variable (m : (ℓ : Loc nD τ sig) → Buf (Elt Ideal) ℓ)

theorem arr0 : Pipeline.arrRef spec0 0 = main_v12 := rfl
theorem arr1 : Pipeline.arrRef spec0 1 = main_arg1 := rfl
theorem arr2 : Pipeline.arrRef spec0 2 = main_v14 := rfl
theorem arr3 : Pipeline.arrRef spec0 3 = main_v15 := rfl

/-- The region finds the one-hot table of the feature argument in window 0's array. -/
theorem V_onehot (c : Dev nD) :
    (V m c main_v12 : S50176x128.Idx → Ideal .bf16) = onehotTable (m ((c : Thread nD τ).loc main_arg0)) := by
  dsimp only [V, V0]
  simp only [hostOps0, hostOps0_1, hostOps0_2, hostOps0_3, hostOps0_4, hostOps0_5, hostOps0_6, List.flatten_cons,
    List.flatten_nil, List.append_nil, List.cons_append, List.nil_append]
  after_results
  rfl

/-- The region finds the padded level table of the level argument in window 2's array. -/
theorem V_padded (c : Dev nD) :
    (V m c main_v14 : S128x4096.Idx → Ideal .bf16) = paddedTable (m ((c : Thread nD τ).loc main_arg2)) := by
  dsimp only [V, V0]
  simp only [hostOps0, hostOps0_1, hostOps0_2, hostOps0_3, hostOps0_4, hostOps0_5, hostOps0_6, List.flatten_cons,
    List.flatten_nil, List.append_nil, List.cons_append, List.nil_append]
  after_results
  rfl

end Cert.KernelIdeal.HostArrays

end
-- ==== Proof.Body.lean ====
/-
  The output block of one grid point as ONE function of the point's three input blocks.

  The kernel body runs a counted loop over the 64 samples.  Trip k loads rows [784·k, 784·k + 784) of the
  one-hot table (the 784 features of sample k), forms a row of 1024 signs from them and the two column
  tiles, and stores that row at row k of the output block.  So the 64 stores tile the 64 × 1024 block row
  by row, each row k being the trip's pure term of the input blocks: after the loop the block reads, at
  (k, d), that term at (0, d) — whatever the staging buffer held before.
-/
import proofs.«140100_j22093311771138_2_alg».proof.Proof.Gen.KernelIdeal.Frame
import Idealize.ShloMosaic.Lib.ValueIdx
import Idealize.ShloMosaic.Lib.Pipeline.Value

set_option maxRecDepth 16384

noncomputable section

namespace Cert.KernelIdeal.Body

open Cert.KernelIdeal Cert.KernelIdeal.Gen Idealize.ShloMosaic Idealize.ShloMosaic.TcCoe Idealize.ShloMosaic.ValueIdx Idealize.SL.Sem

variable {F : FTy → Type} [FloatOps F]

/-- The loop runs once per sample. -/
theorem trips_eq : k0_t1_loop.trips = 64 := by decide

/-- The trip that writes row `b` of the block. -/
def tripOf (b : Fin 64) : Fin k0_t1_loop.trips := ⟨b.val, by rw [trips_eq]; exact b.isLt⟩

/-- The 784 feature rows of sample `k` in the flattened one-hot table. -/
def sampleRows (x0 : Vec F S50176x128 .bf16) (k : Fin k0_t1_loop.trips) : Vec F S784x128 .bf16 :=
  View.ld x0 (Rect.unit (s := S50176x128) (k0_off1 k) S784x128.size (k0_off1_inb k))

/-- The block after the body: row `b` is the trip's term of sample `b`'s rows and the two column tiles. -/
def blockFn (x0 : Vec F S50176x128 .bf16) (x1 : Vec F S784x1024 .f32) (x2 : Vec F S128x1024 .bf16) : Vec F S64x1024 .f32 :=
  fun y => k0_pay1 x2 x1 (sampleRows x0 (tripOf (y 0))) (ix2 0 (y 1))

/-- Every piece the loop has written before trip `n` is a piece of some trip. -/
theorem mem_pb (𝒱 : Variants) (bd : Option 𝒱.V) (c : Dev nD) (i : grid0.Coords) (arg1 : Memref sig .tc .vmem S50176x128 .bf16) (harg1 : arg1.IsWhole) (arg2 : Memref sig .tc .vmem S784x1024 .f32) (harg2 : arg2.IsWhole) (arg3 : Memref sig .tc .vmem S128x1024 .bf16) (harg3 : arg3.IsWhole) (arg4 : Memref sig .tc .vmem S64x1024 .f32) (harg4 : arg4.IsWhole)
    (v0 : Vec F S128x1024 .bf16) (v2 : Vec F S784x1024 .f32) (X : BufTy.Contents (Elt F) arg1.view.ty) :
    ∀ (n : ℕ) (p : View.Piece (Elt F) S64x1024 .f32),
      p ∈ pb_k0_t1 (F := F) 𝒱 c bd i arg1 harg1 arg2 harg2 arg3 harg3 arg4 harg4 v0 v2 X n →
      ∃ k : Fin k0_t1_loop.trips, p ∈ tripL_k0_t1 (F := F) 𝒱 c bd i arg1 harg1 arg2 harg2 arg3 harg3 arg4 harg4 v0 v2 X k
  | 0, p, h => by rw [pb_k0_t1.eq_1] at h; exact absurd h List.not_mem_nil
  | n + 1, p, h => by
    rw [pb_k0_t1.eq_2] at h
    unfold pb_k0_t1Step at h
    split at h
    · rename_i hn
      rcases List.mem_append.mp h with h | h
      · exact ⟨⟨n, hn⟩, h⟩
      · exact mem_pb 𝒱 bd c i arg1 harg1 arg2 harg2 arg3 harg3 arg4 harg4 v0 v2 X n p h
    · exact mem_pb 𝒱 bd c i arg1 harg1 arg2 harg2 arg3 harg3 arg4 harg4 v0 v2 X n p h

/-- One trip writes one piece: the row at the trip's number, holding the trip's term of the rows it loaded. -/
theorem tripL_eq (𝒱 : Variants) (bd : Option 𝒱.V) (c : Dev nD) (i : grid0.Coords) (arg1 : Memref sig .tc .vmem S50176x128 .bf16) (harg1 : arg1.IsWhole) (arg2 : Memref sig .tc .vmem S784x1024 .f32) (harg2 : arg2.IsWhole) (arg3 : Memref sig .tc .vmem S128x1024 .bf16) (harg3 : arg3.IsWhole) (arg4 : Memref sig .tc .vmem S64x1024 .f32) (harg4 : arg4.IsWhole)
    (v0 : Vec F S128x1024 .bf16) (v2 : Vec F S784x1024 .f32) (X : BufTy.Contents (Elt F) arg1.view.ty) (k : Fin k0_t1_loop.trips) :
    tripL_k0_t1 (F := F) 𝒱 c bd i arg1 harg1 arg2 harg2 arg3 harg3 arg4 harg4 v0 v2 X k
      = [(⟨Rect.unit (s := S64x1024) (k0_off2 k) S1x1024.size (k0_off2_inb k),
          k0_pay1 v0 v2 (View.readAt (Elt F) arg1.view (Rect.unit (s := S50176x128) (k0_off1 k) S784x128.size (k0_off1_inb k)).toLoadRect X)⟩ :
          View.Piece (Elt F) S64x1024 .f32)] := by
  unfold tripL_k0_t1 trip_k0_t1; rfl

theorem zero_off : (![0, 0] : Fin 2 → Nat) = fun _ => 0 := by
  funext a; match a with | ⟨0, _⟩ => rfl | ⟨1, _⟩ => rfl

/-- What the body leaves in the output block, read as one function of the input blocks. -/
theorem out_eq (c : Dev nD) (i : grid0.Coords) (arg1 : Memref sig .tc .vmem S50176x128 .bf16) (harg1 : arg1.IsWhole) (arg2 : Memref sig .tc .vmem S784x1024 .f32) (harg2 : arg2.IsWhole) (arg3 : Memref sig .tc .vmem S128x1024 .bf16) (harg3 : arg3.IsWhole) (arg4 : Memref sig .tc .vmem S64x1024 .f32) (harg4 : arg4.IsWhole)
    (x0 : Vec F S50176x128 .bf16) (x1 : Vec F S784x1024 .f32) (x2 : Vec F S128x1024 .bf16) :
    out0_A_3 (F := F) c i arg1 harg1 arg2 harg2 arg3 harg3 arg4 harg4 x0 x1 x2 = blockFn x0 x1 x2 := by
  funext y
  unfold out0_A_3
  refine View.read_writes_apply_of_pieces _ _ (blockFn x0 x1 x2) _ ?_ y (cover0_A_3 c i arg1 harg1 arg2 harg2 arg3 harg3 arg4 harg4 x0 x1 x2 y)
  intro p hp x
  have hL : (kernelRun0_A (F := F) c i arg1 harg1 arg2 harg2 arg3 harg3 arg4 harg4 x0 x1 x2).1
      = pb_k0_t1 Variants.none c none i arg1 harg1 arg2 harg2 arg3 harg3 arg4 harg4
          (View.readAt (Elt F) arg3.view (Rect.unit (s := S128x1024) ![0, 0] S128x1024.size inb_S128x1024_S128x1024_0_0).toLoadRect (harg3.unread x2))
          (View.readAt (Elt F) arg2.view (Rect.unit (s := S784x1024) ![0, 0] S784x1024.size inb_S784x1024_S784x1024_0_0).toLoadRect (harg2.unread x1))
          (harg1.unread x0) k0_t1_loop.trips := by
    unfold kernelRun0_A; rfl
  rw [hL] at hp
  obtain ⟨k, hk⟩ := mem_pb Variants.none none c i arg1 harg1 arg2 harg2 arg3 harg3 arg4 harg4 _ _ _ _ p hp
  rw [tripL_eq] at hk
  obtain rfl := List.mem_singleton.mp hk
  have h0 : k0_off2 k 0 = k.val := congrFun (k0_off2_eq k) 0
  have h1 : k0_off2 k 1 = 0 := congrFun (k0_off2_eq k) 1
  have hx0 : (x 0).val < 1 := (x 0).isLt
  have e0 : tripOf (((Rect.unit (s := S64x1024) (k0_off2 k) S1x1024.size (k0_off2_inb k)).emb x) 0) = k := by
    apply Fin.ext
    show (k0_off2 k) 0 + 1 * (x 0).val = k.val
    omega
  have e1 : ix2 (0 : Fin 1) (((Rect.unit (s := S64x1024) (k0_off2 k) S1x1024.size (k0_off2_inb k)).emb x) 1) = x := by
    funext a
    match a with
    | ⟨0, _⟩ => exact Fin.ext (by show 0 = (x 0).val; omega)
    | ⟨1, _⟩ => exact Fin.ext (by show (k0_off2 k) 1 + 1 * (x 1).val = (x 1).val; omega)
  show k0_pay1 _ _ _ x = blockFn x0 x1 x2 ((Rect.unit (s := S64x1024) (k0_off2 k) S1x1024.size (k0_off2_inb k)).emb x)
  unfold blockFn
  rw [e0]
  refine Eq.trans ?_ (congrArg (k0_pay1 x2 x1 (sampleRows x0 k)) e1.symm)
  refine congrFun ?_ x
  simp only [View.readAt_eq_ld, harg1.read_unread, harg2.read_unread, harg3.read_unread]
  rw [View.ld_unit_zero (S := S128x1024) zero_off, View.ld_unit_zero (S := S784x1024) zero_off]
  rfl

end Cert.KernelIdeal.Body

end
-- ==== Proof.LibDot.lean ====
/-
  Two reads at an index, for tables of any size.

  A matrix product. A product of an m × n table with an n × p table, as the dimension records of this certificate
  describe it (rows free on the left, columns free on the right, one contracted axis, no batch axis), sums over the
  positions of the contracted axis; entry (a, b) is  Σ_k l(a, k) · r(k, b)  with k running over `Fin n`. The sum
  over the record's own contraction index type is carried to `Fin n` along the bijection that reads its one
  coordinate.

  A vector along the rows. A vector b of n entries laid along each of m rows has entry b(j) at (r, j), whether it is
  laid by casting it to one row and repeating the row, or by placing it along axis 1 of a one-row table that is then
  repeated.
-/
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

noncomputable section

open scoped BigOperators

namespace Cert.Sage.LibDot

open Idealize.ShloMosaic Idealize.ShloMosaic.ValueIdx

/-- Entry (a, b) of a plain product as a sum over the contracted axis' positions `k : Fin n`: the record contracts one
    axis of extent n (`hr`, `hs`), its left index at output (a, b) and contraction position q is (a, q) and its
    right index (q, b) (`hl0` … `hr1`, coordinate by coordinate). -/
theorem sum_plain {m n p : Nat} (d : DotDims ⟨2, ![m, n]⟩ ⟨2, ![n, p]⟩ ⟨2, ![m, p]⟩)
    (hr : d.contr.rank = 1) (hs : d.contr.size ⟨0, by omega⟩ = n)
    (hl0 : ∀ (i : (⟨2, ![m, p]⟩ : Shape).Idx) (q : d.contr.Idx), (d.lhsIdx i q 0).val = (i 0).val)
    (hl1 : ∀ (i : (⟨2, ![m, p]⟩ : Shape).Idx) (q : d.contr.Idx), (d.lhsIdx i q 1).val = (q ⟨0, by omega⟩).val)
    (hr0 : ∀ (i : (⟨2, ![m, p]⟩ : Shape).Idx) (q : d.contr.Idx), (d.rhsIdx i q 0).val = (q ⟨0, by omega⟩).val)
    (hr1 : ∀ (i : (⟨2, ![m, p]⟩ : Shape).Idx) (q : d.contr.Idx), (d.rhsIdx i q 1).val = (i 1).val)
    (l : (⟨2, ![m, n]⟩ : Shape).Idx → EReal) (r : (⟨2, ![n, p]⟩ : Shape).Idx → EReal) (a : Fin m) (b : Fin p) :
    ∑ k : d.contr.Idx, l (d.lhsIdx (ix2 a b) k) * r (d.rhsIdx (ix2 a b) k) = ∑ k : Fin n, l (ix2 a k) * r (ix2 k b) := by
  rw [← Equiv.sum_comp (contrEquiv1 d n hr hs).symm]
  refine Finset.sum_congr rfl fun k _ => ?_
  have hk := contrEquiv1_symm_val d n hr hs k
  have el : d.lhsIdx (ix2 a b) ((contrEquiv1 d n hr hs).symm k) = ix2 a k := funext fun x => Fin.ext (by
    match x with
    | ⟨0, _⟩ => exact hl0 _ _
    | ⟨1, _⟩ => exact (hl1 _ _).trans hk)
  have er : d.rhsIdx (ix2 a b) ((contrEquiv1 d n hr hs).symm k) = ix2 k b := funext fun x => Fin.ext (by
    match x with
    | ⟨0, _⟩ => exact (hr0 _ _).trans hk
    | ⟨1, _⟩ => exact hr1 _ _)
  rw [el, er]

variable {α : Type}

/-- A vector cast to one row and the row repeated down m rows: entry (r, j) is the vector's entry j. -/
theorem row_cast_apply {m n : Nat} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (r : Fin m) (j : Fin n) :
    broadcastTo ⟨2, ![m, n]⟩ (shapeCast ⟨2, ![1, n]⟩ x h1) hb (ix2 r j) = x (ix1 j) := by
  have e1 := broadcastTo_apply (shapeCast ⟨2, ![1, n]⟩ x h1) hb (ix2 r j) (ix2 (0 : Fin 1) j) (by
    intro a
    match a with
    | ⟨0, _⟩ => rfl
    | ⟨1, _⟩ =>
      show j.val = if n = 1 then 0 else j.val
      split
      · have := j.isLt; omega
      · rfl)
  have e2 := shapeCast_apply x h1 (ix2 (0 : Fin 1) j) (ix1 j) (by
    rw [Shape.rowMajor_val_two, Shape.rowMajor_val_one]; show j.val = 0 * n + j.val; omega)
  exact e1.trans e2

/-- A vector placed along axis 1 of a one-row table and the table repeated down m rows: entry (r, j) is the vector's
    entry j. -/
theorem row_dims_apply {m n : Nat} (x : (⟨1, ![n]⟩ : Shape).Idx → α)
    (hd : (⟨1, ![n]⟩ : Shape).BroadcastsInDim ⟨2, ![1, n]⟩ ![1])
    (hbc : (⟨2, ![1, n]⟩ : Shape).BroadcastsInDim ⟨2, ![m, n]⟩ ![0, 1]) (r : Fin m) (j : Fin n) :
    broadcastInDim ⟨2, ![m, n]⟩ ![0, 1] hbc (broadcastInDim ⟨2, ![1, n]⟩ ![1] hd x) (ix2 r j) = x (ix1 j) := by
  rw [broadcastInDim_oneRow_apply]
  refine broadcastInDim_apply ![1] hd x (ix2 (0 : Fin 1) j) (ix1 j) ?_
  intro a
  match a with
  | ⟨0, _⟩ =>
    show j.val = if n = 1 then 0 else j.val
    split
    · have := j.isLt; omega
    · rfl

end Cert.Sage.LibDot

end
-- ==== Proof.Payload.lean ====
/-
  One trip's row of signs, read at a column, on the extended reals.

  For a sample's 784 one-hot rows `h` (784 × 128), the level-table tile `v` (128 × 1024) and the id tile `w`
  (784 × 1024), the trip forms  L = h · v  (a product into a zero accumulator), multiplies it entry by entry
  with `w`, sums each column over the 784 rows, and replaces every column sum by +1 where it is > 0 and by −1
  elsewhere.  At column d that is
      sign⁺( Σ_s ( Σ_l h(s, l) · v(l, d) ) · w(s, d) )
  where sign⁺ z is +1 for z > 0 and −1 otherwise.  Changes of float format are the identity here, and the sums are
  sums of extended reals in any order, so no finiteness is needed.
-/
import proofs.«140100_j22093311771138_2_alg».proof.Proof.Gen.KernelIdeal.Skeleton
import proofs.«140100_j22093311771138_2_alg».proof.Proof.LibDot
import proofs.«140100_j22093311771138_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Cert.Spec Idealize.ShloMosaic Idealize.ShloMosaic.ValueIdx

/-- Entry (s, d) of the product of the one-hot rows with the level tile: the sum over the 128 levels. -/
theorem level_apply (h : FVec Ideal S784x128 .bf16) (v : FVec Ideal S128x1024 .bf16) (s : Fin 784) (d : Fin 1024) :
    matmul (F := Ideal) dot_S784x128_S128x1024_S784x1024_1_0_0_1_n_n none h v (constant (F := Ideal) S784x1024 .f32 0x00000000#32) (ix2 s d)
      = ∑ l : Fin 128, h (ix2 s l) * v (ix2 l d) := by
  refine (Ideal.matmul_constant_zero_apply dot_S784x128_S128x1024_S784x1024_1_0_0_1_n_n none h v (ix2 s d)).trans ?_
  exact Cert.Sage.LibDot.sum_plain dot_S784x128_S128x1024_S784x1024_1_0_0_1_n_n rfl rfl
    (fun i q => by
      unfold DotDims.lhsIdx
      rw [dif_neg (show ¬(0 : Fin S784x128.rank) ∈ dot_S784x128_S128x1024_S784x1024_1_0_0_1_n_n.lhsBatch by decide), dif_pos (show (0 : Fin S784x128.rank) ∈ dot_S784x128_S128x1024_S784x1024_1_0_0_1_n_n.lhsNonContracting by decide)]
      rfl)
    (fun i q => dot_S784x128_S128x1024_S784x1024_1_0_0_1_n_n.lhsIdx_val_of_single rfl i q)
    (fun i q => dot_S784x128_S128x1024_S784x1024_1_0_0_1_n_n.rhsIdx_val_of_single rfl i q)
    (fun i q => by
      unfold DotDims.rhsIdx
      rw [dif_neg (show ¬(1 : Fin S128x1024.rank) ∈ dot_S784x128_S128x1024_S784x1024_1_0_0_1_n_n.rhsBatch by decide), dif_pos (show (1 : Fin S128x1024.rank) ∈ dot_S784x128_S128x1024_S784x1024_1_0_0_1_n_n.rhsNonContracting by decide)]
      rfl)
    h v s d

/-- The trip's row at column `d`. -/
theorem pay_apply (v : FVec Ideal S128x1024 .bf16) (w : FVec Ideal S784x1024 .f32) (h : FVec Ideal S784x128 .bf16) (d : Fin 1024) :
    k0_pay1 (F := Ideal) v w h (ix2 (0 : Fin 1) d)
      = signPos (∑ s : Fin 784, (∑ l : Fin 128, h (ix2 s l) * v (ix2 l d)) * w (ix2 s d)) := by
  unfold k0_pay1
  dsimp only
  refine (shapeCast_apply _ shapeCasts_S1024_S1x1024 (ix2 (0 : Fin 1) d) (ix1 d) (by
    rw [Shape.rowMajor_val_two, Shape.rowMajor_val_one]; show d.val = 0 * 1024 + d.val; omega)).trans ?_
  show signPos (multiReduction (F := Ideal) .add [0] S1024
      (mulf (matmul (F := Ideal) dot_S784x128_S128x1024_S784x1024_1_0_0_1_n_n none (shapeCast S784x128 h shapeCasts_S784x128_S784x128)
        (shapeCast S128x1024 v shapeCasts_S128x1024_S128x1024) (constant (F := Ideal) S784x1024 .f32 0x00000000#32)) w)
      0x00000000#32 reduces_S784x1024_S1024 (.inl rfl) rfl (ix1 d)) = _
  refine congrArg signPos ?_
  refine (Ideal.multiReduction_add_single _ 0x00000000#32 reduces_S784x1024_S1024 (.inl rfl) rfl (ix1 d)).trans ?_
  refine Finset.sum_congr rfl fun s _ => ?_
  have el : reduces_S784x1024_S1024.lift (ix1 d) s = ix2 s d := funext fun c => Fin.ext (by
    match c with
    | ⟨0, _⟩ => rfl
    | ⟨1, _⟩ => rfl)
  rw [el]
  refine congrArg (· * w (ix2 s d)) ?_
  rw [shapeCast_self, shapeCast_self]
  exact level_apply h v s d

end Cert.KernelIdeal.Payload

end
-- ==== Proof.Collapse.lean ====
/-
  One entry of an output block is the specification's encoding.

  Take the block the body leaves (row b: the trip's term of sample b's one-hot rows and the two column tiles) with the
  three input blocks being what the launch cuts: the whole one-hot table, and the column tiles of the id table and of
  the padded level table that start at column col0.  At (b, d), with col = col0 + d:

      Σ_l onehot(784·b + s, l) · padded(l, col)
        = Σ_l [l = level of x(b, s)] · (table(l, col) if l < 100, else 0)
        = table(level of x(b, s), col)

  because on the extended reals 1 · v = v and 0 · v = 0 for every v, so a sum against an indicator is the indicated
  term, and the level is a row below 100.  Multiplying by the id entry (s, col), summing over the 784 features and
  taking the sign gives the specification's encoding of sample b at coordinate col.
-/
import proofs.«140100_j22093311771138_2_alg».proof.Proof.Body
import proofs.«140100_j22093311771138_2_alg».proof.Proof.Payload
import proofs.«140100_j22093311771138_2_alg».proof.Proof.HostTerms

set_option maxRecDepth 16384

noncomputable section

open scoped BigOperators

namespace Cert.KernelIdeal.Collapse

open Cert.KernelIdeal Cert.KernelIdeal.Gen Cert.KernelIdeal.Body Cert.KernelIdeal.Payload Cert.KernelIdeal.HostTerms
open Cert.Spec Cert.LibOneHot Idealize.ShloMosaic Idealize.ShloMosaic.ValueIdx

/-- A dense product of sample b's one-hot row for feature s with a column of the padded table picks the level
    table's entry at the level of x(b, s). -/
theorem level_pick (L : Fin 100) (f : Fin 100 → EReal) :
    ∑ l : Fin 128, ind (l.val = L.val) * (if h : l.val < 100 then f ⟨l.val, h⟩ else 0) = f L := by
  have hL : L.val < 128 := lt_trans L.isLt (by norm_num)
  have e : ∀ l : Fin 128, ind (l.val = L.val) * (if h : l.val < 100 then f ⟨l.val, h⟩ else 0)
      = ind (l = (⟨L.val, hL⟩ : Fin 128)) * (if h : l.val < 100 then f ⟨l.val, h⟩ else 0) := fun l => by
    rw [ind_mul, ind_mul]
    exact if_congr (by rw [Fin.ext_iff]) rfl rfl
  rw [Finset.sum_congr rfl fun l _ => e l, sum_ind_mul]
  show (if h : L.val < 100 then f ⟨L.val, h⟩ else 0) = f L
  rw [dif_pos L.isLt]

/-- The output block at (b, d), when the input blocks are the launch's cuts at column col0. -/
theorem block_entry (x : FVec Ideal S64x784 .f32) (w : FVec Ideal S784x4096 .f32) (tb : FVec Ideal S100x4096 .f32)
    (X0 : Vec Ideal S50176x128 .bf16) (X1 : Vec Ideal S784x1024 .f32) (X2 : Vec Ideal S128x1024 .bf16)
    (col0 : ℕ) (hcol : col0 + 1024 ≤ 4096)
    (h0 : ∀ (r : Fin 50176) (l : Fin 128), X0 (ix2 r l) = onehotTable x (ix2 r l))
    (h1 : ∀ (s : Fin 784) (d : Fin 1024), X1 (ix2 s d) = w (ix2 s ⟨col0 + d.val, by have := d.isLt; omega⟩))
    (h2 : ∀ (l : Fin 128) (d : Fin 1024), X2 (ix2 l d) = paddedTable tb (ix2 l ⟨col0 + d.val, by have := d.isLt; omega⟩))
    (b : Fin 64) (d : Fin 1024) :
    blockFn X0 X1 X2 (ix2 b d) = enc x w tb b ⟨col0 + d.val, by have := d.isLt; omega⟩ := by
  unfold blockFn
  show k0_pay1 (F := Ideal) X2 X1 (sampleRows X0 (tripOf b)) (ix2 (0 : Fin 1) d) = _
  refine (pay_apply X2 X1 (sampleRows X0 (tripOf b)) d).trans ?_
  unfold enc
  refine congrArg signPos (Finset.sum_congr rfl fun s _ => ?_)
  rw [h1 s d]
  refine congrArg (· * w (ix2 s ⟨col0 + d.val, by have := d.isLt; omega⟩)) ?_
  have hrow : ∀ l : Fin 128, sampleRows X0 (tripOf b) (ix2 s l) = ind (l.val = (levelOf (x (ix2 b s))).val) := fun l => by
    have hb : b.val * 784 + s.val < 50176 := by have := b.isLt; have := s.isLt; omega
    have ei : (Rect.unit (s := S50176x128) (k0_off1 (tripOf b)) S784x128.size (k0_off1_inb (tripOf b))).idx (ix2 s l)
        = ix2 (⟨b.val * 784 + s.val, hb⟩ : Fin 50176) l := funext fun a => Fin.ext (by
      have q0 : k0_off1 (tripOf b) 0 = 784 * b.val := congrFun (k0_off1_eq (tripOf b)) 0
      have q1 : k0_off1 (tripOf b) 1 = 0 := congrFun (k0_off1_eq (tripOf b)) 1
      match a with
      | ⟨0, _⟩ => show k0_off1 (tripOf b) 0 + 1 * s.val = b.val * 784 + s.val; omega
      | ⟨1, _⟩ => show k0_off1 (tripOf b) 1 + 1 * l.val = l.val; omega)
    show X0 ((Rect.unit (s := S50176x128) (k0_off1 (tripOf b)) S784x128.size (k0_off1_inb (tripOf b))).idx (ix2 s l)) = _
    rw [ei, h0, onehot_apply x b s l _ rfl]
  rw [Finset.sum_congr rfl fun l _ => by rw [hrow l, h2 l d, padded_apply]]
  exact level_pick (levelOf (x (ix2 b s))) (fun L => tb (ix2 L ⟨col0 + d.val, by have := d.isLt; omega⟩))

end Cert.KernelIdeal.Collapse

end
-- ==== Proof.KernelValue.lean ====
/-
  The encoding array after the launch: the specification's encoding, everywhere.

  The launch runs four grid points; point t cuts column tile t (columns 1024·t … 1024·t + 1023) of the id table and
  of the padded level table, the whole one-hot table, and writes back column tile t of the 64 × 4096 encoding array.
  The block written back at point t is, entry by entry, the specification's encoding at column 1024·t + d; the four
  tiles cover the array (column c lies in tile c / 1024); so the array ends holding the encoding at every index.
-/
import proofs.«140100_j22093311771138_2_alg».proof.Proof.Gen.KernelIdeal.Frame
import proofs.«140100_j22093311771138_2_alg».proof.Proof.HostArrays
import proofs.«140100_j22093311771138_2_alg».proof.Proof.Collapse
import Idealize.ShloMosaic.Lib.Pipeline.Value

set_option maxRecDepth 16384

noncomputable section

namespace Cert.KernelIdeal.KernelValue

open Cert.KernelIdeal Cert.KernelIdeal.Gen Cert.KernelIdeal.Body Cert.KernelIdeal.HostTerms Cert.KernelIdeal.HostArrays
open Cert.KernelIdeal.Collapse Cert.Spec Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

/-- The encoding of every sample at every coordinate, from the launch contents of the three arguments it reads. -/
def encArr (c : Dev nD) : S64x4096.Idx → Ideal .f32 := fun i =>
  enc (m ((c : Thread nD τ).loc main_arg0)) (m ((c : Thread nD τ).loc main_arg1)) (m ((c : Thread nD τ).loc main_arg2)) (i 0) (i 1)

/-- The printed index maps over the four grid points: window 0 stays at block (0, 0); windows 1, 2 and 3 are at
    block (0, t). -/
theorem idx_facts : ∀ t : Fin cfg0.N,
    win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val ∧ t.val < 4 :=
  (by decide +kernel : ∀ t : Fin grid0.N, _)

/-- Every column tile is some point's. -/
theorem idx_onto : ∀ q : Fin 4, ∃ t : Fin cfg0.N, win0_3.index t = ![0, q.val] :=
  (by decide +kernel : ∀ q : Fin 4, ∃ t : Fin grid0.N, win0_3.index t = ![0, q.val])

/-- What point `t` writes back is block `t` of the encoding array. -/
theorem flushed_eq (c : Dev nD) (t : Fin cfg0.N) :
    (dats m 0 c).flushed 3 t = ((cfg0.win 3).blk t).view.read (Elt Ideal) (encArr m c) := by
  show (cfg0.win 3).cut (grid0.coords t) ((dats m 0 c).after 3 t) = _
  rw [after0_3]
  unfold outsAt0
  rw [Body.out_eq]
  obtain ⟨a0, a1, b0, b1, c0, c1, d0, d1, ht⟩ := idx_facts t
  have h0 : ∀ (r : Fin 50176) (l : Fin 128), iblk m c 0 t (ix2 r l) = onehotTable (m ((c : Thread nD τ).loc main_arg0)) (ix2 r l) := fun r l => by
    show V m c main_v12 (((cfg0.win 0).blk t).view.emb (ix2 r l)) = _
    have e : ((cfg0.win 0).blk t).view.emb (ix2 r l) = ix2 r l := by
      funext a; apply Fin.ext
      match a with
      | ⟨0, _⟩ => show win0_0.index t (0 : Fin 2) * 50176 + 1 * r.val = r.val; omega
      | ⟨1, _⟩ => show win0_0.index t (1 : Fin 2) * 128 + 1 * l.val = l.val; omega
    rw [e]; exact congrFun (V_onehot m c) (ix2 r l)
  have h1 : ∀ (s : Fin 784) (d : Fin 1024), iblk m c 1 t (ix2 s d)
      = (m ((c : Thread nD τ).loc main_arg1)) (ix2 s ⟨1024 * t.val + d.val, by have := d.isLt; omega⟩) := fun s d => by
    show V m c main_arg1 (((cfg0.win 1).blk t).view.emb (ix2 s d)) = _
    have e : ((cfg0.win 1).blk t).view.emb (ix2 s d) = ix2 s (⟨1024 * t.val + d.val, by have := d.isLt; omega⟩ : Fin 4096) := by
      funext a; apply Fin.ext
      match a with
      | ⟨0, _⟩ => show win0_1.index t (0 : Fin 2) * 784 + 1 * s.val = s.val; omega
      | ⟨1, _⟩ => show win0_1.index t (1 : Fin 2) * 1024 + 1 * d.val = 1024 * t.val + d.val; omega
    rw [e]; exact congrFun (V_main_arg1 m c) _
  have h2 : ∀ (l : Fin 128) (d : Fin 1024), iblk m c 2 t (ix2 l d)
      = paddedTable (m ((c : Thread nD τ).loc main_arg2)) (ix2 l ⟨1024 * t.val + d.val, by have := d.isLt; omega⟩) := fun l d => by
    show V m c main_v14 (((cfg0.win 2).blk t).view.emb (ix2 l d)) = _
    have e : ((cfg0.win 2).blk t).view.emb (ix2 l d) = ix2 l (⟨1024 * t.val + d.val, by have := d.isLt; omega⟩ : Fin 4096) := by
      funext a; apply Fin.ext
      match a with
      | ⟨0, _⟩ => show win0_2.index t (0 : Fin 2) * 128 + 1 * l.val = l.val; omega
      | ⟨1, _⟩ => show win0_2.index t (1 : Fin 2) * 1024 + 1 * d.val = 1024 * t.val + d.val; omega
    rw [e]; exact congrFun (V_padded m c) _
  funext j
  obtain ⟨b, d, rfl⟩ : ∃ (b : Fin 64) (d : Fin 1024), j = ix2 b d := ⟨j 0, j 1, eq_ix2 j⟩
  show blockFn (iblk m c 0 t) (iblk m c 1 t) (iblk m c 2 t) (ix2 b d) = encArr m c (((cfg0.win 3).blk t).view.emb (ix2 b d))
  have e3 : ((cfg0.win 3).blk t).view.emb (ix2 b d) = ix2 b (⟨1024 * t.val + d.val, by have := d.isLt; omega⟩ : Fin 4096) := by
    funext a; apply Fin.ext
    match a with
    | ⟨0, _⟩ => show win0_3.index t (0 : Fin 2) * 64 + 1 * b.val = b.val; omega
    | ⟨1, _⟩ => show win0_3.index t (1 : Fin 2) * 1024 + 1 * d.val = 1024 * t.val + d.val; omega
  rw [e3]
  exact block_entry (m ((c : Thread nD τ).loc main_arg0)) (m ((c : Thread nD τ).loc main_arg1)) (m ((c : Thread nD τ).loc main_arg2))
    (iblk m c 0 t) (iblk m c 1 t) (iblk m c 2 t) (1024 * t.val) (by omega) h0 h1 h2 b d

/-- An index of the array is in point `t`'s block iff each coordinate is in the block's range on its axis. -/
theorem mem_blk (t : Fin cfg0.N) (i : S64x4096.Idx) :
    i ∈ ((cfg0.win 3).blk t).view.set ↔ ∀ a : Fin 2, win0_3.index t a * S64x1024.size a ≤ (i a).val
      ∧ (i a).val < win0_3.index t a * S64x1024.size a + S64x1024.size a := by
  show i ∈ ((View.whole main_v15).slice (win0_3.rect t)).set ↔ _
  rw [View.set_slice_whole, Rect.mem_set_unit]
  exact Iff.rfl

/-- The four column tiles cover the array. -/
theorem cover (i : S64x4096.Idx) : ∃ t : Fin cfg0.N, (cfg0.win 3).flush t = true ∧ i ∈ ((cfg0.win 3).blk t).view.set := by
  have hi0 : (i 0).val < 64 := (i 0).isLt
  have hi1 : (i 1).val < 4096 := (i 1).isLt
  obtain ⟨t, ht⟩ := idx_onto ⟨(i 1).val / 1024, by omega⟩
  have q0 : win0_3.index t (0 : Fin 2) = 0 := congrFun ht 0
  have q1 : win0_3.index t (1 : Fin 2) = (i 1).val / 1024 := congrFun ht 1
  refine ⟨t, flush0_3 t, ?_⟩
  rw [mem_blk]
  intro a
  match a with
  | ⟨0, _⟩ => show win0_3.index t (0 : Fin 2) * 64 ≤ (i 0).val ∧ (i 0).val < win0_3.index t (0 : Fin 2) * 64 + 64; omega
  | ⟨1, _⟩ => show win0_3.index t (1 : Fin 2) * 1024 ≤ (i 1).val ∧ (i 1).val < win0_3.index t (1 : Fin 2) * 1024 + 1024; omega

/-- The encoding array after the launch. -/
theorem final (c : Dev nD) : (dats m 0 c).arrAt 3 cfg0.N = encArr m c :=
  (dats m 0 c).arrAt_eq_of_cover 3 (encArr m c) (fun t _ => flushed_eq m c t) (cover)

end Cert.KernelIdeal.KernelValue

end
-- ==== Proof.KernelRun.lean ====
/-
  The kernel program's result.

  After the launch the host transposes the classifier table and contracts the encoding array against it over the
  4096 coordinates: the logits.  The launch leaves the encoding array holding the specification's encoding and does
  not touch the classifier argument, so the program ends with the logits of that encoding; its four arguments end
  as they were launched.
-/
import proofs.«140100_j22093311771138_2_alg».proof.Proof.Gen.KernelIdeal.Frame
import proofs.«140100_j22093311771138_2_alg».proof.Proof.KernelValue
import Idealize.ShloMosaic.Lib.StableHlo.Run

set_option maxRecDepth 16384

noncomputable section

namespace Cert.KernelIdeal.KernelRun

open Cert.KernelIdeal Cert.KernelIdeal.Gen Cert.KernelIdeal.KernelValue Idealize.ShloMosaic Idealize.ShloMosaic.TcCoe
open Idealize.SL.Sem Idealize.ShloMosaic.StableHlo

variable (m : (ℓ : Loc nD τ sig) → Buf (Elt Ideal) ℓ) (ρ : Dev nD → PrngReg)

/-- The logits of an encoding array: its contraction over the 4096 coordinates with the transposed classifier table. -/
def logits (e : S64x4096.Idx → Ideal .f32) (cw : S10x4096.Idx → Ideal .f32) : S64x10.Idx → Ideal .f32 :=
  Host.dotGeneral (F := Ideal) dot_S64x4096_S4096x10_S64x10_1_0_0_1_n_n (some .fp32) e (transpose S4096x10 [1, 0] cw transposes_S10x4096_S4096x10_1_0)

/-- What the host operations after the launch leave in the result buffer. -/
theorem tail_eq (c : Dev nD) :
    (Pipeline.afterTail₀ cfgs (dats m) 0 (V0 m) [hostOps1] c main_v17 : S64x10.Idx → Ideal .f32)
      = logits (encArr m c) (m ((c : Thread nD τ).loc main_arg3)) := by
  unfold Pipeline.afterTail₀
  show StableHlo.after hostOps1 _ (Proc.devRef .tc main_v17) = _
  after_results
  have e15 : (Pipeline.withArrays (cfgs 0).spec c (V0 m c) (fun w => (dats m 0 c).arrAt w (cfgs 0).N) (Proc.devRef .tc main_v15)
      : S64x4096.Idx → Ideal .f32) = encArr m c :=
    (Pipeline.withArrays_arr spec0 launch0.win.arr_inj c _ _ 3).trans (final m c)
  have e3 : (Pipeline.withArrays (cfgs 0).spec c (V0 m c) (fun w => (dats m 0 c).arrAt w (cfgs 0).N) (Proc.devRef .tc main_arg3)
      : S10x4096.Idx → Ideal .f32) = m ((c : Thread nD τ).loc main_arg3) :=
    (Pipeline.withArrays_of_ne _ c (V0 m c) _ main_arg3 (by exact (by decide : ∀ w, Pipeline.arrRef spec0 w ≠ main_arg3))).trans
      (V_main_arg3 m c)
  unfold logits
  rw [e15, e3]

/-- The kernel program's run: the result buffer ends at the logits of the specification's encoding, the arguments as
    launched. -/
theorem run : θ_run defs (onTc (τ := τ) (main (F := Ideal))) ⟨m, fun _ => 0, ρ⟩ fun r => ∀ c : Dev nD,
      r.2.mem ((c : Thread nD τ).loc main_v17) = logits (encArr m c) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h c).2 main_v17 (Pipeline.mem_restRefs_of main_v17 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KernelRun

end
-- ==== Proof.Bridge.lean ====
/-
  The reference's result is the kernel program's.

  Both programs end by contracting an encoding array against the transposed classifier table.  The reference's
  encoding array is the specification's encoding; the contraction on the extended reals is one sum whatever precision
  the operation asks for; so the reference's result is the logits of the specification's encoding, which is what
  the kernel program's result buffer ends holding.
-/
import proofs.«140100_j22093311771138_2_alg».proof.Proof.RefValue
import proofs.«140100_j22093311771138_2_alg».proof.Proof.KernelRun

noncomputable section

namespace Cert.Bridge

open Cert.Spec Idealize.ShloMosaic Idealize.ShloMosaic.ValueIdx

/-- The reference's last stage is the logits of the specification's encoding of its first three arguments. -/
theorem ref_logits (x0 : (⟨Cert.ReferenceIdeal.S64x784, .f32⟩ : BufTy).Contents (Elt Ideal))
    (x1 : (⟨Cert.ReferenceIdeal.S784x4096, .f32⟩ : BufTy).Contents (Elt Ideal))
    (x2 : (⟨Cert.ReferenceIdeal.S100x4096, .f32⟩ : BufTy).Contents (Elt Ideal))
    (x3 : (⟨Cert.ReferenceIdeal.S10x4096, .f32⟩ : BufTy).Contents (Elt Ideal)) :
    Cert.ReferenceIdeal.Read.val_main_v21 (F := Ideal) x0 x1 x2 x3
      = Cert.KernelIdeal.KernelRun.logits (fun i => enc x0 x1 x2 (i 0) (i 1)) x3 := by
  have e19 : Cert.ReferenceIdeal.Read.val_main_v19 (F := Ideal) x0 x1 x2 = fun i => enc x0 x1 x2 (i 0) (i 1) :=
    funext fun i => by
      obtain ⟨b, d, rfl⟩ : ∃ (b : Fin 64) (d : Fin 4096), i = ix2 b d := ⟨i 0, i 1, eq_ix2 i⟩
      exact Cert.ReferenceIdeal.RefValue.ref_enc x0 x1 x2 b d
  unfold Cert.ReferenceIdeal.Read.val_main_v21 Cert.KernelIdeal.KernelRun.logits
  rw [e19]
  unfold Cert.ReferenceIdeal.Read.val_main_v20
  simp only [Host.dotGeneral, Ideal.dotGeneral_def]
  rfl

end Cert.Bridge

end
-- ==== Proof.lean ====
/-
  A hyperdimensional encoder and classifier: the kernel program and its reference compute the same logits.

  Each of 64 samples has 784 feature values.  A feature value x is sent to a LEVEL — 99·x rounded to the nearest
  integer, clipped to [0, 99] — and a sample's encoding at each of 4096 coordinates d is the sign (+1 where > 0, −1
  elsewhere) of  Σ_s table(level of x(b, s), d) · id(s, d)  over its 784 features.  The logits contract the
  encoding with a 10 × 4096 classifier table.

  The reference fetches the level table's row by a gather.  The kernel program instead builds, on the host, a one-hot
  table (entry 1 at the level's column, 0 elsewhere, 128 columns) and a level table padded with 28 zero rows, and its
  kernel multiplies the two: on the extended reals 1 · v = v and 0 · v = 0 for every v, so that product is the
  gathered row exactly, with no finiteness needed; the level is one of 0, …, 99 for every extended real because the
  clip forces it.  The kernel works one 1024-column tile per grid point and one sample per loop trip; the tiles cover
  the array.  Everything else — the order of a product's factors, a sum started from zero, the float formats of the
  tables, the precision asked of the last contraction — is the same function on the extended reals.

  The three frames are the programs' generated runs; the kernel's idealization rewrote nothing.
-/
import proofs.«140100_j22093311771138_2_alg».proof.Defs
import proofs.«140100_j22093311771138_2_alg».proof.Proof.Gen.Kernel
import proofs.«140100_j22093311771138_2_alg».proof.Proof.Gen.Kernel.Skeleton
import proofs.«140100_j22093311771138_2_alg».proof.Proof.Gen.Kernel.Loops
import proofs.«140100_j22093311771138_2_alg».proof.Proof.Gen.Kernel.Launch
import proofs.«140100_j22093311771138_2_alg».proof.Proof.Gen.Kernel.Points
import proofs.«140100_j22093311771138_2_alg».proof.Proof.Gen.Kernel.Frame
import proofs.«140100_j22093311771138_2_alg».proof.Proof.Gen.KernelIdeal
import proofs.«140100_j22093311771138_2_alg».proof.Proof.Gen.KernelIdeal.Skeleton
import proofs.«140100_j22093311771138_2_alg».proof.Proof.Gen.KernelIdeal.Loops
import proofs.«140100_j22093311771138_2_alg».proof.Proof.Gen.KernelIdeal.Launch
import proofs.«140100_j22093311771138_2_alg».proof.Proof.Gen.KernelIdeal.Points
import proofs.«140100_j22093311771138_2_alg».proof.Proof.Gen.KernelIdeal.Frame
import proofs.«140100_j22093311771138_2_alg».proof.Proof.Gen.ReferenceIdeal
import proofs.«140100_j22093311771138_2_alg».proof.Proof.Gen.Pre_finite_inputs
import proofs.«140100_j22093311771138_2_alg».proof.Proof.Gen.ReferenceIdeal.Run
import proofs.«140100_j22093311771138_2_alg».proof.Proof.Gen.ReferenceIdeal.Read
import proofs.«140100_j22093311771138_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs, from memories that agree on the four arguments, end with the logits of the specification's
    encoding of those arguments. -/
theorem algebraic : Cert.algebraic_KernelIdeal_ReferenceIdeal := by
  intro m ρ m' ρ' _ hagree
  refine ⟨fun c => Cert.KernelIdeal.KernelRun.logits (Cert.KernelIdeal.KernelValue.encArr m c)
    (m ((c.tc : Thread Cert.KernelIdeal.nD Cert.KernelIdeal.τ).loc Cert.KernelIdeal.main_arg3)),
    Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, (hagree c).1, (hagree c).2.1, (hagree c).2.2.1, (hagree c).2.2.2]
  exact Cert.Bridge.ref_logits _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
